-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x112x112x256 : Shape := ⟨4, ![32, 112, 112, 256]⟩
abbrev S256x32 : Shape := ⟨2, ![256, 32]⟩
abbrev S32 : Shape := ⟨1, ![32]⟩
abbrev S32x256 : Shape := ⟨2, ![32, 256]⟩
abbrev S256 : Shape := ⟨1, ![256]⟩
abbrev S_ : Shape := ⟨0, ![]⟩

class Facts : Prop where
  bcast_S_S32x112x112x256 : S_.BroadcastsInDim S32x112x112x256 (![] : Fin 0 → Fin S32x112x112x256.rank)
  reducesTo_S32x112x112x256_S_d0_1_2_3 : S32x112x112x256.ReducesTo [0, 1, 2, 3] S_
  h_S_ : 0 < S_.numel
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_
  bcast_S_S32x256 : S_.BroadcastsInDim S32x256 (![] : Fin 0 → Fin S32x256.rank)
  reducesTo_S32x256_S_d0_1 : S32x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S32x256 1) : IVec S_ 1 :=
  let main_c_5 : IVec S_ 1 := constantI S_ 1 1#1
  let main_v17 : IVec S_ 1 := (fun x v => Host.reduce IntOp.andi x v reducesTo_S32x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S32x112x112x256 .f32) (main_arg1 : FVec F S256x32 .f32) (main_arg2 : FVec F S32 .f32) (main_arg3 : FVec F S32x256 .f32) (main_arg4 : FVec F S256 .f32) : IVec S_ 1 :=
  let main_v0 : FVec F S32x112x112x256 .f32 := Host.absf main_arg0
  let main_cst : FVec F S_ .f32 := constant S_ .f32 0x7F800000#32
  let main_v1 : FVec F S32x112x112x256 .f32 := broadcastInDim S32x112x112x256 ![] bcast_S_S32x112x112x256 main_cst
  let main_v2 : IVec S32x112x112x256 1 := cmpf .olt main_v0 main_v1
  let main_c : IVec S_ 1 := constantI S_ 1 1#1
  let main_v3 : IVec S_ 1 := (fun x v => Host.reduce IntOp.andi x v reducesTo_S32x112x112x256_S_d0_1_2_3 h_S_) main_v2 main_c
  let main_v4 : FVec F S256x32 .f32 := Host.absf main_arg1
  let main_cst_0 : FVec F S_ .f32 := constant S_ .f32 0x7F800000#32
  let main_v5 : FVec F S256x32 .f32 := broadcastInDim S256x32 ![] bcast_S_S256x32 main_cst_0
  let main_v6 : IVec S256x32 1 := cmpf .olt main_v4 main_v5
  let main_c_1 : IVec S_ 1 := constantI S_ 1 1#1
  let main_v7 : IVec S_ 1 := (fun x v => Host.reduce IntOp.andi x v reducesTo_S256x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x256 .f32 := Host.absf main_arg3
  let main_cst_4 : FVec F S_ .f32 := constant S_ .f32 0x7F800000#32
  let main_v15 : FVec F S32x256 .f32 := broadcastInDim S32x256 ![] bcast_S_S32x256 main_cst_4
  let main_v16 : IVec S32x256 1 := cmpf .olt main_v14 main_v15
  fn_part1 (F := F) main_arg4 main_v13 main_v16
-- ==== Kernel.lean ====
abbrev S32x112x112x256 : Shape := ⟨4, ![32, 112, 112, 256]⟩
abbrev S256x32 : Shape := ⟨2, ![256, 32]⟩
abbrev S32 : Shape := ⟨1, ![32]⟩
abbrev S32x256 : Shape := ⟨2, ![32, 256]⟩
abbrev S256 : Shape := ⟨1, ![256]⟩
abbrev S1x112x112x256 : Shape := ⟨4, ![1, 112, 112, 256]⟩
abbrev S1x16x112x256 : Shape := ⟨4, ![1, 16, 112, 256]⟩
abbrev S16x112x256 : Shape := ⟨3, ![16, 112, 256]⟩
abbrev S1x256 : Shape := ⟨2, ![1, 256]⟩
abbrev S2x256 : Shape := ⟨2, ![2, 256]⟩
abbrev S2x32 : Shape := ⟨2, ![2, 32]⟩
abbrev S1x32 : Shape := ⟨2, ![1, 32]⟩
abbrev S1x1x256 : Shape := ⟨3, ![1, 1, 256]⟩

abbrev nBuf : Space → Nat
  | .hbm => 6
  | .vmem => 8
  | .smem => 0
  | _ => 0

abbrev bufTy : (tb : Table) → Fin (tcTables nBuf tb) → BufTy
  | .hbm, ⟨0, _⟩ => ⟨S32x112x112x256, .f32⟩
  | .hbm, ⟨1, _⟩ => ⟨S256x32, .f32⟩
  | .hbm, ⟨2, _⟩ => ⟨S32, .f32⟩
  | .hbm, ⟨3, _⟩ => ⟨S32x256, .f32⟩
  | .hbm, ⟨4, _⟩ => ⟨S256, .f32⟩
  | .hbm, ⟨5, _⟩ => ⟨S32x112x112x256, .f32⟩
  | .local _ .vmem, ⟨0, _⟩ => ⟨S1x112x112x256, .f32⟩
  | .local _ .vmem, ⟨1, _⟩ => ⟨S1x112x112x256, .f32⟩
  | .local _ .vmem, ⟨2, _⟩ => ⟨S256x32, .f32⟩
  | .local _ .vmem, ⟨3, _⟩ => ⟨S32, .f32⟩
  | .local _ .vmem, ⟨4, _⟩ => ⟨S32x256, .f32⟩
  | .local _ .vmem, ⟨5, _⟩ => ⟨S256, .f32⟩
  | .local _ .vmem, ⟨6, _⟩ => ⟨S1x112x112x256, .f32⟩
  | .local _ .vmem, ⟨7, _⟩ => ⟨S1x112x112x256, .f32⟩
  | _, _ => ⟨S32x112x112x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c16_i32 : BitVec 32 := 16#32
  let v2 : BitVec 32 := Scalar.muli c0_i32 c16_i32
  v2
def k0_off1 (c0_i32 : BitVec 32) : Fin 4 → Nat :=
  let c0 : Index := 0#32
  let c16_i32 : BitVec 32 := 16#32
  let v2 : BitVec 32 := Scalar.muli c0_i32 c16_i32
  let v3 : BitVec 32 := v2
  let v4 : Index := Scalar.indexCast v3
  let c0_1 : Index := 0#32
  let c0_2 : Index := 0#32
  ![0, v4.toNat, 0, 0]
def k0_mult2 : BitVec 32 :=
  let c1_i32 : BitVec 32 := 1#32
  let c16_i32_5 : BitVec 32 := 16#32
  let v11 : BitVec 32 := Scalar.muli c1_i32 c16_i32_5
  v11
def k0_mult3 : BitVec 32 :=
  let c2_i32 : BitVec 32 := 2#32
  let c16_i32_11 : BitVec 32 := 16#32
  let v20 : BitVec 32 := Scalar.muli c2_i32 c16_i32_11
  v20
def k0_mult4 : BitVec 32 :=
  let c3_i32 : BitVec 32 := 3#32
  let c16_i32_17 : BitVec 32 := 16#32
  let v29 : BitVec 32 := Scalar.muli c3_i32 c16_i32_17
  v29
def k0_mult5 : BitVec 32 :=
  let c4_i32 : BitVec 32 := 4#32
  let c16_i32_23 : BitVec 32 := 16#32
  let v38 : BitVec 32 := Scalar.muli c4_i32 c16_i32_23
  v38
def k0_mult6 : BitVec 32 :=
  let c5_i32 : BitVec 32 := 5#32
  let c16_i32_29 : BitVec 32 := 16#32
  let v47 : BitVec 32 := Scalar.muli c5_i32 c16_i32_29
  v47
def k0_mult7 : BitVec 32 :=
  let c6_i32 : BitVec 32 := 6#32
  let c16_i32_35 : BitVec 32 := 16#32
  let v56 : BitVec 32 := Scalar.muli c6_i32 c16_i32_35
  v56
def k0_mult8 : BitVec 32 :=
  let c0_i32_51 : BitVec 32 := 0#32
  let c16_i32_52 : BitVec 32 := 16#32
  let v91 : BitVec 32 := Scalar.muli c0_i32_51 c16_i32_52
  v91
def k0_mult9 : BitVec 32 :=
  let c1_i32_59 : BitVec 32 := 1#32
  let c16_i32_60 : BitVec 32 := 16#32
  let v102 : BitVec 32 := Scalar.muli c1_i32_59 c16_i32_60
  v102
def k0_mult10 : BitVec 32 :=
  let c2_i32_67 : BitVec 32 := 2#32
  let c16_i32_68 : BitVec 32 := 16#32
  let v113 : BitVec 32 := Scalar.muli c2_i32_67 c16_i32_68
  v113
def k0_mult11 : BitVec 32 :=
  let c3_i32_75 : BitVec 32 := 3#32
  let c16_i32_76 : BitVec 32 := 16#32
  let v124 : BitVec 32 := Scalar.muli c3_i32_75 c16_i32_76
  v124
def k0_mult12 : BitVec 32 :=
  let c4_i32_83 : BitVec 32 := 4#32
  let c16_i32_84 : BitVec 32 := 16#32
  let v135 : BitVec 32 := Scalar.muli c4_i32_83 c16_i32_84
  v135
def k0_mult13 : BitVec 32 :=
  let c5_i32_91 : BitVec 32 := 5#32
  let c16_i32_92 : BitVec 32 := 16#32
  let v146 : BitVec 32 := Scalar.muli c5_i32_91 c16_i32_92
  v146
def k0_mult14 : BitVec 32 :=
  let c6_i32_99 : BitVec 32 := 6#32
  let c16_i32_100 : BitVec 32 := 16#32
  let v157 : BitVec 32 := Scalar.muli c6_i32_99 c16_i32_100
  v157
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x112x112x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x112x112x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  h_S1x16x112x256 : 0 < S1x16x112x256.numel
  shapeCasts_S1x16x112x256_S16x112x256 : S1x16x112x256.ShapeCasts S16x112x256
  reduces_S16x112x256_S256 : S16x112x256.Reduces [0, 1] S256
  inb_S256x32_S256x32_0_0 : ∀ a, (![0, 0] : Fin 2 → Nat) a + S256x32.size a ≤ S256x32.size a
  h_S256x32 : 0 < S256x32.numel
  inb_S32_S32_0 : ∀ a, (![0] : Fin 1 → Nat) a + S32.size a ≤ S32.size a
  h_S32 : 0 < S32.numel
  inb_S32x256_S32x256_0_0 : ∀ a, (![0, 0] : Fin 2 → Nat) a + S32x256.size a ≤ S32x256.size a
  h_S32x256 : 0 < S32x256.numel
  inb_S256_S256_0 : ∀ a, (![0] : Fin 1 → Nat) a + S256.size a ≤ S256.size a
  h_S256 : 0 < S256.numel
  shapeCasts_S256_S1x256 : S256.ShapeCasts S1x256
  concatenates_S1x256_S1x256_S2x256_d0 : Shape.Concatenates [S1x256, S1x256] S2x256 0
  shapeCasts_S32_S1x32 : S32.ShapeCasts S1x32
  broadcasts_S1x32_S2x32 : S1x32.Broadcasts S2x32
  broadcasts_S1x256_S2x256 : S1x256.Broadcasts S2x256
  slices_S2x256_o0_0_S1x256 : S2x256.Slices ![0, 0] S1x256
  shapeCasts_S1x256_S256 : S1x256.ShapeCasts S256
  slices_S2x256_o1_0_S1x256 : S2x256.Slices ![1, 0] S1x256
  shapeCasts_S256_S1x1x256 : S256.ShapeCasts S1x1x256
  broadcasts_S1x1x256_S16x112x256 : S1x1x256.Broadcasts S16x112x256
  shapeCasts_S16x112x256_S1x16x112x256 : S16x112x256.ShapeCasts S1x16x112x256
  dot_S2x256_S256x32_S2x32_1_0_0_1_n_n_wf : DotDims.WF S2x256 S256x32 S2x32 [1] [0] [0] [1] [] []
  dot_S2x32_S32x256_S2x256_1_0_0_1_n_n_wf : DotDims.WF S2x32 S32x256 S2x256 [1] [0] [0] [1] [] []
  hrank0 : 0 < grid0.rank
  k0_mult1_dvd : 16 ∣ k0_mult1.toNat
  k0_off1_inb : ∀ (r : Fin 7), ∀ a, (k0_off1 (BitVec.ofNat 32 r.val)) a + S1x16x112x256.size a ≤ S1x112x112x256.size a
  k0_mult2_dvd : 16 ∣ k0_mult2.toNat
  k0_mult3_dvd : 16 ∣ k0_mult3.toNat
  k0_mult4_dvd : 16 ∣ k0_mult4.toNat
  k0_mult5_dvd : 16 ∣ k0_mult5.toNat
  k0_mult6_dvd : 16 ∣ k0_mult6.toNat
  k0_mult7_dvd : 16 ∣ k0_mult7.toNat
  k0_mult8_dvd : 16 ∣ k0_mult8.toNat
  k0_mult9_dvd : 16 ∣ k0_mult9.toNat
  k0_mult10_dvd : 16 ∣ k0_mult10.toNat
  k0_mult11_dvd : 16 ∣ k0_mult11.toNat
  k0_mult12_dvd : 16 ∣ k0_mult12.toNat
  k0_mult13_dvd : 16 ∣ k0_mult13.toNat
  k0_mult14_dvd : 16 ∣ k0_mult14.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x112x112x256.size a ≤ S32x112x112x256.size a
  hwx0_0 : ∀ i : grid0.Coords, EltTy.bits .f32 = 32 ∨ (Rect.block (s := S32x112x112x256) S1x112x112x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S256x32.size a
  hwx0_1 : ∀ i : grid0.Coords, EltTy.bits .f32 = 32 ∨ (Rect.block (s := S256x32) S256x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x256.size a ≤ S32x256.size a
  hwx0_3 : ∀ i : grid0.Coords, EltTy.bits .f32 = 32 ∨ (Rect.block (s := S32x256) S32x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x112x112x256.size a ≤ S32x112x112x256.size a
  hwx0_5 : ∀ i : grid0.Coords, EltTy.bits .f32 = 32 ∨ (Rect.block (s := S32x112x112x256) S1x112x112x256.size (cc0_transform_5 i) (hinb0_5 i)).WholeWords (EltTy.packing .f32)

variable [Facts₀]

def dot_S2x256_S256x32_S2x32_1_0_0_1_n_n : DotDims S2x256 S256x32 S2x32 where
  lhsContracting := [1]
  rhsContracting := [0]
  lhsNonContracting := [0]
  rhsNonContracting := [1]
  lhsBatch := []
  rhsBatch := []
  wf := dot_S2x256_S256x32_S2x32_1_0_0_1_n_n_wf
def dot_S2x32_S32x256_S2x256_1_0_0_1_n_n : DotDims S2x32 S32x256 S2x256 where
  lhsContracting := [1]
  rhsContracting := [0]
  lhsNonContracting := [0]
  rhsNonContracting := [1]
  lhsBatch := []
  rhsBatch := []
  wf := dot_S2x32_S32x256_S2x256_1_0_0_1_n_n_wf

abbrev win0_0 : Pipeline.Window sig grid0 :=
  Pipeline.Window.ofSpec (Memref.whole main_arg0) S1x112x112x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x112x112x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x112x112x256 : Shape := ⟨4, ![32, 112, 112, 256]⟩
abbrev S256x32 : Shape := ⟨2, ![256, 32]⟩
abbrev S32 : Shape := ⟨1, ![32]⟩
abbrev S32x256 : Shape := ⟨2, ![32, 256]⟩
abbrev S256 : Shape := ⟨1, ![256]⟩
abbrev S_ : Shape := ⟨0, ![]⟩
abbrev S32x32 : Shape := ⟨2, ![32, 32]⟩
abbrev S1x32 : Shape := ⟨2, ![1, 32]⟩
abbrev S1x256 : Shape := ⟨2, ![1, 256]⟩
abbrev S32x1x1x256 : Shape := ⟨4, ![32, 1, 1, 256]⟩

abbrev nBuf : Space → Nat
  | .hbm => 46
  | .vmem => 0
  | .smem => 0
  | _ => 0

abbrev bufTy : (tb : Table) → Fin (tcTables nBuf tb) → BufTy
  | .hbm, ⟨0, _⟩ => ⟨S32x112x112x256, .f32⟩
  | .hbm, ⟨1, _⟩ => ⟨S256x32, .f32⟩
  | .hbm, ⟨2, _⟩ => ⟨S32, .f32⟩
  | .hbm, ⟨3, _⟩ => ⟨S32x256, .f32⟩
  | .hbm, ⟨4, _⟩ => ⟨S256, .f32⟩
  | .hbm, ⟨5, _⟩ => ⟨S_, .f32⟩
  | .hbm, ⟨6, _⟩ => ⟨S32x256, .f32⟩
  | .hbm, ⟨7, _⟩ => ⟨S_, .f32⟩
  | .hbm, ⟨8, _⟩ => ⟨S32x256, .f32⟩
  | .hbm, ⟨9, _⟩ => ⟨S32x256, .f32⟩
  | .hbm, ⟨10, _⟩ => ⟨S_, .f32⟩
  | .hbm, ⟨11, _⟩ => ⟨S32x256, .f32⟩
  | .hbm, ⟨12, _⟩ => ⟨S32x32, .f32⟩
  | .hbm, ⟨13, _⟩ => ⟨S1x32, .f32⟩
  | .hbm, ⟨14, _⟩ => ⟨S32x32, .f32⟩
  | .hbm, ⟨15, _⟩ => ⟨S32x32, .f32⟩
  | .hbm, ⟨16, _⟩ => ⟨S_, .f32⟩
  | .hbm, ⟨17, _⟩ => ⟨S32x32, .f32⟩
  | .hbm, ⟨18, _⟩ => ⟨S32x32, .f32⟩
  | .hbm, ⟨19, _⟩ => ⟨S32x256, .f32⟩
  | .hbm, ⟨20, _⟩ => ⟨S1x256, .f32⟩
  | .hbm, ⟨21, _⟩ => ⟨S32x256, .f32⟩
  | .hbm, ⟨22, _⟩ => ⟨S32x256, .f32⟩
  | .hbm, ⟨23, _⟩ => ⟨S32x32, .f32⟩
  | .hbm, ⟨24, _⟩ => ⟨S1x32, .f32⟩
  | .hbm, ⟨25, _⟩ => ⟨S32x32, .f32⟩
  | .hbm, ⟨26, _⟩ => ⟨S32x32, .f32⟩
  | .hbm, ⟨27, _⟩ => ⟨S_, .f32⟩
  | .hbm, ⟨28, _⟩ => ⟨S32x32, .f32⟩
  | .hbm, ⟨29, _⟩ => ⟨S32x32, .f32⟩
  | .hbm, ⟨30, _⟩ => ⟨S32x256, .f32⟩
  | .hbm, ⟨31, _⟩ => ⟨S1x256, .f32⟩
  | .hbm, ⟨32, _⟩ => ⟨S32x256, .f32⟩
  | .hbm, ⟨33, _⟩ => ⟨S32x256, .f32⟩
  | .hbm, ⟨34, _⟩ => ⟨S32x256, .f32⟩
  | .hbm, ⟨35, _⟩ => ⟨S32x256, .f32⟩
  | .hbm, ⟨36, _⟩ => ⟨S32x256, .f32⟩
  | .hbm, ⟨37, _⟩ => ⟨S_, .f32⟩
  | .hbm, ⟨38, _⟩ => ⟨S32x256, .f32⟩
  | .hbm, ⟨39, _⟩ => ⟨S32x256, .f32⟩
  | .hbm, ⟨40, _⟩ => ⟨S_, .f32⟩
  | .hbm, ⟨41, _⟩ => ⟨S32x256, .f32⟩
  | .hbm, ⟨42, _⟩ => ⟨S32x256, .f32⟩
  | .hbm, ⟨43, _⟩ => ⟨S32x1x1x256, .f32⟩
  | .hbm, ⟨44, _⟩ => ⟨S32x112x112x256, .f32⟩
  | .hbm, ⟨45, _⟩ => ⟨S32x112x112x256, .f32⟩
  | _, _ => ⟨S32x112x112x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_cst : Ref sig .tc := ⟨.hbm, 16, rfl⟩
abbrev main_call0_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call1_cst : Ref sig .tc := ⟨.hbm, 27, rfl⟩
abbrev main_call1_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]

class Facts₀ : Prop where
  reducesTo_S32x112x112x256_S32x256_d1_2 : S32x112x112x256.ReducesTo [1, 2] S32x256
  h_S_ : 0 < S_.numel
  bcast_S_S32x256 : S_.BroadcastsInDim S32x256 (![] : Fin 0 → Fin S32x256.rank)
  bcast_S32_S1x32_1 : S32.BroadcastsInDim S1x32 (![1] : Fin 1 → Fin S1x32.rank)
  bcast_S1x32_S32x32_0_1 : S1x32.BroadcastsInDim S32x32 (![0, 1] : Fin 2 → Fin S32x32.rank)
  bcast_S_S32x32 : S_.BroadcastsInDim S32x32 (![] : Fin 0 → Fin S32x32.rank)
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  bcast_S32x256_S32x1x1x256_0_3 : S32x256.BroadcastsInDim S32x1x1x256 (![0, 3] : Fin 2 → Fin S32x1x1x256.rank)
  bcast_S32x1x1x256_S32x112x112x256_0_1_2_3 : S32x1x1x256.BroadcastsInDim S32x112x112x256 (![0, 1, 2, 3] : Fin 4 → Fin S32x112x112x256.rank)
  dot_S32x256_S256x32_S32x32_1_0_0_1_n_n_wf : DotDims.WF S32x256 S256x32 S32x32 [1] [0] [0] [1] [] []
  dot_S32x32_S32x256_S32x256_1_0_0_1_n_n_wf : DotDims.WF S32x32 S32x256 S32x256 [1] [0] [0] [1] [] []

variable [Facts₀]

def dot_S32x256_S256x32_S32x32_1_0_0_1_n_n : DotDims S32x256 S256x32 S32x32 where
  lhsContracting := [1]
  rhsContracting := [0]
  lhsNonContracting := [0]
  rhsNonContracting := [1]
  lhsBatch := []
  rhsBatch := []
  wf := dot_S32x256_S256x32_S32x32_1_0_0_1_n_n_wf
def dot_S32x32_S32x256_S32x256_1_0_0_1_n_n : DotDims S32x32 S32x256 S32x256 where
  lhsContracting := [1]
  rhsContracting := [0]
  lhsNonContracting := [0]
  rhsNonContracting := [1]
  lhsBatch := []
  rhsBatch := []
  wf := dot_S32x32_S32x256_S32x256_1_0_0_1_n_n_wf

class Facts : Prop extends Facts₀ where

variable [Facts]
-- ==== Proof.Spec.lean ====
/-
  Channel gating of a batch of images x[b, h, w, k] (any number of images, 112 × 112 positions, 256 channels).
  Channel k of image b is pooled over its 112 · 112 positions twice: its mean — the sum divided by 12544 — and its
  maximum. Each pooled vector of 256 numbers goes through the same two-layer map (256 → 32, a ramp at zero,
  32 → 256); the two results are added, the logistic function of that sum is the channel's gate, and every entry of
  the image is multiplied by the gate of its channel. This file states that function over the extended reals, and the
  one law the comparison of two ways of computing it needs: a sum (a maximum) over the 112 rows is the sum (the
  maximum) of seven partial ones, each over 16 consecutive rows. Addition and maximum on the extended reals are
  commutative and associative everywhere, so no finiteness is asked.
-/
import Idealize.ShloMosaic.PureOps.Ideal.Laws
import Idealize.ShloMosaic.Lib.ValueIdx

noncomputable section

namespace Cert.ChannelGate

open Idealize.ShloMosaic Idealize.ShloMosaic.ValueIdx

/-! ## The function -/

/-- A batch of `B` images. -/
abbrev Img (B : Nat) : Type := (⟨4, ![B, 112, 112, 256]⟩ : Shape).Idx → EReal
abbrev W1 : Type := (⟨2, ![256, 32]⟩ : Shape).Idx → EReal
abbrev B1 : Type := (⟨1, ![32]⟩ : Shape).Idx → EReal
abbrev W2 : Type := (⟨2, ![32, 256]⟩ : Shape).Idx → EReal
abbrev B2 : Type := (⟨1, ![256]⟩ : Shape).Idx → EReal

/-- The word of minus infinity, from which a maximum starts; the word of zero, the ramp's corner; the word of 12544. -/
abbrev negInf : EReal := Ideal.ofBits .f32 0xFF800000#32
abbrev zeroW : EReal := Ideal.ofBits .f32 0x00000000#32
abbrev count : EReal := Ideal.ofBits .f32 0x46440000#32

variable {B : Nat}

/-- The sum of channel `k` of image `b` over all positions. -/
def planeSum (x : Img B) (b : Fin B) (k : Fin 256) : EReal := ∑ p : Fin 112 × Fin 112, x (ix4 b p.1 p.2 k)

/-- The maximum of channel `k` of image `b` over all positions, from minus infinity. -/
def planeMax (x : Img B) (b : Fin B) (k : Fin 256) : EReal :=
  (Finset.univ : Finset (Fin 112 × Fin 112)).fold max negInf fun p => x (ix4 b p.1 p.2 k)

/-- The mean: the sum divided by the number of positions. -/
def planeMean (x : Img B) (b : Fin B) (k : Fin 256) : EReal := Ideal.div (planeSum x b k) count

/-- The hidden layer at unit `j`: the ramp of `p · w1[:, j] + b1[j]`. -/
def rampUnit (p : Fin 256 → EReal) (w1 : W1) (b1 : B1) (j : Fin 32) : EReal :=
  max (∑ k : Fin 256, p k * w1 (ix2 k j) + b1 (ix1 j)) zeroW

/-- The two-layer map at output channel `c`. -/
def mlp (p : Fin 256 → EReal) (w1 : W1) (b1 : B1) (w2 : W2) (b2 : B2) (c : Fin 256) : EReal :=
  ∑ j : Fin 32, rampUnit p w1 b1 j * w2 (ix2 j c) + b2 (ix1 c)

/-- The gate of channel `c` of image `b`. -/
def gate (x : Img B) (w1 : W1) (b1 : B1) (w2 : W2) (b2 : B2) (b : Fin B) (c : Fin 256) : EReal :=
  Ideal.logistic (mlp (planeMean x b) w1 b1 w2 b2 c + mlp (planeMax x b) w1 b1 w2 b2 c)

/-- The gated batch. -/
def gated (x : Img B) (w1 : W1) (b1 : B1) (w2 : W2) (b2 : B2) : Img B :=
  fun i => x i * gate x w1 b1 w2 b2 (i 0) (i 3)

/-- The gate of an image depends on that image only: a one-image batch that holds image `t` of `x` has its gates. -/
theorem gate_of_image (x : Img B) (y : Img 1) (t : Fin B) (w1 : W1) (b1 : B1) (w2 : W2) (b2 : B2)
    (h : ∀ (r s : Fin 112) (k : Fin 256), y (ix4 (0 : Fin 1) r s k) = x (ix4 t r s k)) (c : Fin 256) :
    gate y w1 b1 w2 b2 0 c = gate x w1 b1 w2 b2 t c := by
  have hs : planeMean y 0 = planeMean x t := funext fun k => by simp only [planeMean, planeSum, h]
  have hm : planeMax y 0 = planeMax x t := funext fun k => by simp only [planeMax, h]
  simp only [gate, hs, hm]

/-! ## Rows in seven groups of sixteen -/

/-- Row `r` of group `n`. -/
def row (n : Fin 7) (r : Fin 16) : Fin 112 := ⟨16 * n.val + r.val, by omega⟩

/-- Every row is one row of one group. -/
def rowEquiv : Fin 7 × Fin 16 ≃ Fin 112 where
  toFun p := row p.1 p.2
  invFun h := (⟨h.val / 16, by omega⟩, ⟨h.val % 16, by omega⟩)
  left_inv := fun ⟨n, r⟩ => Prod.ext (Fin.ext (by show (16 * n.val + r.val) / 16 = n.val; omega))
    (Fin.ext (by show (16 * n.val + r.val) % 16 = r.val; omega))
  right_inv := fun h => Fin.ext (by show 16 * (h.val / 16) + h.val % 16 = h.val; omega)

theorem row_div_mod (h : Fin 112) : row ⟨h.val / 16, by omega⟩ ⟨h.val % 16, by omega⟩ = h :=
  Fin.ext (by show 16 * (h.val / 16) + h.val % 16 = h.val; omega)

/-- The sum over one group of rows. -/
def groupSum (f : Fin 112 → Fin 112 → EReal) (n : Fin 7) : EReal := ∑ q : Fin 16 × Fin 112, f (row n q.1) q.2

/-- The maximum over one group of rows, from `init`. -/
def groupMax (init : EReal) (f : Fin 112 → Fin 112 → EReal) (n : Fin 7) : EReal :=
  (Finset.univ : Finset (Fin 16 × Fin 112)).fold max init fun q => f (row n q.1) q.2

/-- A sum over all positions is the sum of the seven group sums. -/
theorem sum_groups (f : Fin 112 → Fin 112 → EReal) :
    ∑ p : Fin 112 × Fin 112, f p.1 p.2 = ∑ n : Fin 7, groupSum f n := by
  rw [Fintype.sum_prod_type, ← rowEquiv.sum_comp (fun h => ∑ s : Fin 112, f h s), Fintype.sum_prod_type]
  refine Finset.sum_congr rfl fun n _ => ?_
  unfold groupSum
  rw [Fintype.sum_prod_type]
  rfl

/-- The seven group sums added one after the other onto zero. -/
theorem sum_chain (f : Fin 112 → Fin 112 → EReal) :
    0 + groupSum f 0 + groupSum f 1 + groupSum f 2 + groupSum f 3 + groupSum f 4 + groupSum f 5 + groupSum f 6
      = ∑ p : Fin 112 × Fin 112, f p.1 p.2 := by
  rw [sum_groups, Fin.sum_univ_seven, zero_add]

theorem groupMax_le (init : EReal) (f : Fin 112 → Fin 112 → EReal) (n : Fin 7) (z : EReal) :
    groupMax init f n ≤ z ↔ init ≤ z ∧ ∀ (r : Fin 16) (s : Fin 112), f (row n r) s ≤ z := by
  unfold groupMax
  rw [Finset.fold_max_le]
  exact and_congr Iff.rfl ⟨fun h r s => h (r, s) (Finset.mem_univ _), fun h q _ => h q.1 q.2⟩

/-- The seven group maxima folded one after the other onto `init` are the maximum over all positions. -/
theorem max_chain (init : EReal) (f : Fin 112 → Fin 112 → EReal) :
    max (max (max (max (max (max (max init (groupMax init f 0)) (groupMax init f 1)) (groupMax init f 2))
      (groupMax init f 3)) (groupMax init f 4)) (groupMax init f 5)) (groupMax init f 6)
      = (Finset.univ : Finset (Fin 112 × Fin 112)).fold max init fun p => f p.1 p.2 := by
  refine eq_of_forall_ge_iff fun z => ?_
  rw [Finset.fold_max_le]
  simp only [max_le_iff, groupMax_le]
  constructor
  · rintro ⟨⟨⟨⟨⟨⟨⟨hi, -, h0⟩, -, h1⟩, -, h2⟩, -, h3⟩, -, h4⟩, -, h5⟩, -, h6⟩
    refine ⟨hi, fun p _ => ?_⟩
    have hall : ∀ n : Fin 7, ∀ (r : Fin 16) (s : Fin 112), f (row n r) s ≤ z := fun n =>
      match n with
      | ⟨0, _⟩ => h0 | ⟨1, _⟩ => h1 | ⟨2, _⟩ => h2 | ⟨3, _⟩ => h3 | ⟨4, _⟩ => h4 | ⟨5, _⟩ => h5 | ⟨6, _⟩ => h6
      | ⟨k + 7, hk⟩ => absurd hk (by omega)
    have := hall ⟨p.1.val / 16, by omega⟩ ⟨p.1.val % 16, by omega⟩ p.2
    rwa [row_div_mod] at this
  · rintro ⟨hi, h⟩
    have hg : ∀ n : Fin 7, ∀ (r : Fin 16) (s : Fin 112), f (row n r) s ≤ z :=
      fun n r s => h (row n r, s) (Finset.mem_univ _)
    exact ⟨⟨⟨⟨⟨⟨⟨hi, hi, hg 0⟩, hi, hg 1⟩, hi, hg 2⟩, hi, hg 3⟩, hi, hg 4⟩, hi, hg 5⟩, hi, hg 6⟩

end Cert.ChannelGate

end
-- ==== Proof.Pool.lean ====
/-
  The pooling pass of the kernel body, at the ideal values. The body reads the image block (1 × 112 × 112 × 256) as
  seven pieces of 16 rows each; of every piece it takes, channel by channel, the sum over the piece's 16 · 112
  positions and the maximum over them, and it adds (takes the maximum of) the seven results one after the other,
  from zero (from minus infinity). Read at channel k, a piece's sum is the sum over (r, s) of the piece at
  (0, r, s, k), its maximum the maximum over the same pairs; so when piece n holds rows 16 n … 16 n + 15 of an image,
  the chain of seven is the sum (the maximum) over all 112 · 112 positions of that image.
-/
import proofs.«149182_j53266184405043_2_alg».proof.Proof.Gen.KernelIdeal.Skeleton
import proofs.«149182_j53266184405043_2_alg».proof.Proof.Spec
import Idealize.ShloMosaic.Lib.ValueLayout
import Idealize.ShloMosaic.PureOps.Ideal.Laws

noncomputable section

namespace Cert.KernelIdeal.Pool

open Cert.KernelIdeal Cert.KernelIdeal.Gen Idealize.ShloMosaic Idealize.ShloMosaic.ValueIdx Cert.ChannelGate

/-- Position (r, s) of a 16-row piece, at channel `k`. -/
def pieceEmb (k : Fin 256) : Fin 16 × Fin 112 ↪ S16x112x256.Idx :=
  ⟨fun q => ix3 q.1 q.2 k, fun p q h => Prod.ext (congrFun h 0) (congrFun h 1)⟩

/-- The indices of a piece that keep channel `k` when the two position axes are dropped are its positions at `k`. -/
theorem filter_piece (k : Fin 256) :
    (Finset.univ.filter fun i : S16x112x256.Idx => reduces_S16x112x256_S256.drop i = ix1 k)
      = Finset.univ.map (pieceEmb k) := by
  ext i
  simp only [Finset.mem_filter, Finset.mem_univ, true_and, Finset.mem_map, pieceEmb, Function.Embedding.coeFn_mk]
  constructor
  · intro h
    have h2 : (i 2).val = k.val := by
      rw [← reduces_S16x112x256_S256.drop_apply_val_of_eq i 0 2, h]
    exact ⟨(i 0, i 1), funext fun a => Fin.ext (by
      match a with
      | ⟨0, _⟩ => rfl
      | ⟨1, _⟩ => rfl
      | ⟨2, _⟩ => exact h2.symm)⟩
  · rintro ⟨q, rfl⟩
    funext a
    apply Fin.ext
    match a with
    | ⟨0, _⟩ => exact reduces_S16x112x256_S256.drop_apply_val_of_eq _ 0 2

/-- One piece's sum over its positions, at channel `k`. -/
def pieceSum (l : Vec Ideal S1x16x112x256 .f32) (k : Fin 256) : EReal := ∑ q : Fin 16 × Fin 112, l (ix4 (0 : Fin 1) q.1 q.2 k)

/-- One piece's maximum over its positions, at channel `k`, from minus infinity. -/
def pieceMax (l : Vec Ideal S1x16x112x256 .f32) (k : Fin 256) : EReal :=
  (Finset.univ : Finset (Fin 16 × Fin 112)).fold max negInf fun q => l (ix4 (0 : Fin 1) q.1 q.2 k)

/-- The body's sum of a piece over its two position axes, read at channel `k`. -/
theorem reduce_add_piece (l : Vec Ideal S1x16x112x256 .f32) (k : Fin 256) :
    multiReduction (F := Ideal) .add [0, 1] S256 (shapeCast S16x112x256 l shapeCasts_S1x16x112x256_S16x112x256) 0x00000000#32
      reduces_S16x112x256_S256 (.inl rfl) rfl (ix1 k) = pieceSum l k := by
  refine Eq.trans (show _ = ∑ i ∈ Finset.univ.filter (fun i : S16x112x256.Idx => reduces_S16x112x256_S256.drop i = ix1 k),
    shapeCast S16x112x256 l shapeCasts_S1x16x112x256_S16x112x256 i from rfl) ?_
  rw [filter_piece, Finset.sum_map]
  exact Finset.sum_congr rfl fun q _ => shapeCast_1abc_abc_apply l _ q.1 q.2 k

/-- The body's maximum of a piece over its two position axes, read at channel `k`. -/
theorem reduce_max_piece (l : Vec Ideal S1x16x112x256 .f32) (k : Fin 256) :
    multiReduction (F := Ideal) .maximumf [0, 1] S256 (shapeCast S16x112x256 l shapeCasts_S1x16x112x256_S16x112x256) 0xFF800000#32
      reduces_S16x112x256_S256 (.inl rfl) rfl (ix1 k) = pieceMax l k := by
  refine (multiReduction_maximumf_eq_fold _ _ _ _ _ _).trans ?_
  rw [filter_piece, Finset.fold_map]
  have e : (shapeCast S16x112x256 l shapeCasts_S1x16x112x256_S16x112x256) ∘ (pieceEmb k)
      = fun q : Fin 16 × Fin 112 => l (ix4 (0 : Fin 1) q.1 q.2 k) :=
    funext fun q => shapeCast_1abc_abc_apply l _ q.1 q.2 k
  rw [e]
  rfl

/-- The seven piece sums added one after the other onto the zero word. -/
theorem sum_of_pieces (l0 l1 l2 l3 l4 l5 l6 : Vec Ideal S1x16x112x256 .f32) (k : Fin 256) :
    k0_pay13 (k0_pay7 l0 l1 l2) l3 l4 l5 l6 (ix1 k)
      = zeroW + pieceSum l0 k + pieceSum l1 k + pieceSum l2 k + pieceSum l3 k + pieceSum l4 k + pieceSum l5 k + pieceSum l6 k :=
  congrArg₂ (· + ·) (congrArg₂ (· + ·) (congrArg₂ (· + ·) (congrArg₂ (· + ·) (congrArg₂ (· + ·) (congrArg₂ (· + ·)
    (congrArg₂ (· + ·) rfl (reduce_add_piece l0 k)) (reduce_add_piece l1 k)) (reduce_add_piece l2 k)) (reduce_add_piece l3 k))
    (reduce_add_piece l4 k)) (reduce_add_piece l5 k)) (reduce_add_piece l6 k)

/-- The seven piece maxima folded one after the other onto the word of minus infinity. -/
theorem max_of_pieces (l0 l1 l2 l3 l4 l5 l6 : Vec Ideal S1x16x112x256 .f32) (k : Fin 256) :
    k0_pay14 (k0_pay8 l0 l1 l2) l3 l4 l5 l6 (ix1 k)
      = max (max (max (max (max (max (max negInf (pieceMax l0 k)) (pieceMax l1 k)) (pieceMax l2 k)) (pieceMax l3 k))
          (pieceMax l4 k)) (pieceMax l5 k)) (pieceMax l6 k) :=
  congrArg₂ max (congrArg₂ max (congrArg₂ max (congrArg₂ max (congrArg₂ max (congrArg₂ max
    (congrArg₂ max rfl (reduce_max_piece l0 k)) (reduce_max_piece l1 k)) (reduce_max_piece l2 k)) (reduce_max_piece l3 k))
    (reduce_max_piece l4 k)) (reduce_max_piece l5 k)) (reduce_max_piece l6 k)

/-- A piece that holds rows 16 n … 16 n + 15 of image 0 of `x` has group n's sum and maximum. -/
theorem pieceSum_rows (x : Img 1) (l : Vec Ideal S1x16x112x256 .f32) (n : Fin 7)
    (hl : ∀ (r : Fin 16) (s : Fin 112) (k : Fin 256), l (ix4 (0 : Fin 1) r s k) = x (ix4 (0 : Fin 1) (row n r) s k)) (k : Fin 256) :
    pieceSum l k = groupSum (fun r s => x (ix4 (0 : Fin 1) r s k)) n := by
  unfold pieceSum groupSum
  exact Finset.sum_congr rfl fun q _ => hl q.1 q.2 k

theorem pieceMax_rows (x : Img 1) (l : Vec Ideal S1x16x112x256 .f32) (n : Fin 7)
    (hl : ∀ (r : Fin 16) (s : Fin 112) (k : Fin 256), l (ix4 (0 : Fin 1) r s k) = x (ix4 (0 : Fin 1) (row n r) s k)) (k : Fin 256) :
    pieceMax l k = groupMax negInf (fun r s => x (ix4 (0 : Fin 1) r s k)) n := by
  unfold pieceMax groupMax
  exact congrArg (fun f => (Finset.univ : Finset (Fin 16 × Fin 112)).fold max negInf f) (funext fun q => hl q.1 q.2 k)

/-- What it means for a piece to hold group `n` of the rows of image 0 of `x`. -/
def HoldsRows (x : Img 1) (n : Fin 7) (l : Vec Ideal S1x16x112x256 .f32) : Prop :=
  ∀ (r : Fin 16) (s : Fin 112) (k : Fin 256), l (ix4 (0 : Fin 1) r s k) = x (ix4 (0 : Fin 1) (row n r) s k)

/-- When piece n holds rows 16 n … 16 n + 15 of the image, the chain of sums is the sum over all positions. -/
theorem sum_of_rows (x : Img 1) (l0 l1 l2 l3 l4 l5 l6 : Vec Ideal S1x16x112x256 .f32)
    (h0 : HoldsRows x 0 l0) (h1 : HoldsRows x 1 l1) (h2 : HoldsRows x 2 l2) (h3 : HoldsRows x 3 l3)
    (h4 : HoldsRows x 4 l4) (h5 : HoldsRows x 5 l5) (h6 : HoldsRows x 6 l6) (k : Fin 256) :
    k0_pay13 (k0_pay7 l0 l1 l2) l3 l4 l5 l6 (ix1 k) = planeSum x 0 k := by
  rw [sum_of_pieces, pieceSum_rows x l0 0 h0, pieceSum_rows x l1 1 h1, pieceSum_rows x l2 2 h2, pieceSum_rows x l3 3 h3,
    pieceSum_rows x l4 4 h4, pieceSum_rows x l5 5 h5, pieceSum_rows x l6 6 h6, show zeroW = 0 from Ideal.ofBits_zero_f32, sum_chain]
  rfl

/-- Under the same reading the chain of maxima is the maximum over all positions. -/
theorem max_of_rows (x : Img 1) (l0 l1 l2 l3 l4 l5 l6 : Vec Ideal S1x16x112x256 .f32)
    (h0 : HoldsRows x 0 l0) (h1 : HoldsRows x 1 l1) (h2 : HoldsRows x 2 l2) (h3 : HoldsRows x 3 l3)
    (h4 : HoldsRows x 4 l4) (h5 : HoldsRows x 5 l5) (h6 : HoldsRows x 6 l6) (k : Fin 256) :
    k0_pay14 (k0_pay8 l0 l1 l2) l3 l4 l5 l6 (ix1 k) = planeMax x 0 k := by
  rw [max_of_pieces, pieceMax_rows x l0 0 h0, pieceMax_rows x l1 1 h1, pieceMax_rows x l2 2 h2, pieceMax_rows x l3 3 h3,
    pieceMax_rows x l4 4 h4, pieceMax_rows x l5 5 h5, pieceMax_rows x l6 6 h6, max_chain]
  rfl

end Cert.KernelIdeal.Pool

end
-- ==== Proof.LibMatmulSum.lean ====
/-
  A plain matrix product  [n, K] x [K, w] -> [n, w]  at the ideal values, for any contraction length K and whichever
  record of dimension numbers spells it: the sum over the record's own contraction index, read at entry (p, q), is the
  sum over k < K of left(p, k) * right(k, q).  A kernel's matrix-unit product into a zero accumulator is that sum.
  The record enters only through six facts about its index maps (one contracted axis of extent K; the left operand
  contracted on its axis 1, the right on its axis 0; the result's axes the left's axis 0 and the right's axis 1).
-/
import Idealize.ShloMosaic.PureOps.Ideal.Laws
import Idealize.ShloMosaic.Lib.Pipeline.Value
import Idealize.ShloMosaic.Lib.ValueIdx

noncomputable section

namespace Cert.LibMatmulSum

open Idealize.ShloMosaic Idealize.ShloMosaic.ValueIdx

/-- The index facts of a plain product with contraction length `K`. -/
structure Plain {n K w : ℕ} (d : DotDims ⟨2, ![n, K]⟩ ⟨2, ![K, w]⟩ ⟨2, ![n, w]⟩) : Prop where
  rank : d.contr.rank = 1
  size : d.contr.size ⟨0, by rw [rank]; exact Nat.one_pos⟩ = K
  l0 : ∀ (i : (⟨2, ![n, w]⟩ : Shape).Idx) (q : d.contr.Idx), (d.lhsIdx i q 0).val = (i 0).val
  l1 : ∀ (i : (⟨2, ![n, w]⟩ : Shape).Idx) (q : d.contr.Idx), (d.lhsIdx i q 1).val = (q ⟨0, by rw [rank]; exact Nat.one_pos⟩).val
  r0 : ∀ (i : (⟨2, ![n, w]⟩ : Shape).Idx) (q : d.contr.Idx), (d.rhsIdx i q 0).val = (q ⟨0, by rw [rank]; exact Nat.one_pos⟩).val
  r1 : ∀ (i : (⟨2, ![n, w]⟩ : Shape).Idx) (q : d.contr.Idx), (d.rhsIdx i q 1).val = (i 1).val

/-- The contraction sum at entry (p, q), re-indexed by k < K. -/
theorem sum_eq {n K w : ℕ} {d : DotDims ⟨2, ![n, K]⟩ ⟨2, ![K, w]⟩ ⟨2, ![n, w]⟩} (hd : Plain d)
    (l : (⟨2, ![n, K]⟩ : Shape).Idx → EReal) (r : (⟨2, ![K, w]⟩ : Shape).Idx → EReal) (p : Fin n) (q : Fin w) :
    (∑ k : d.contr.Idx, l (d.lhsIdx (ix2 p q) k) * r (d.rhsIdx (ix2 p q) k)) = ∑ k : Fin K, l (ix2 p k) * r (ix2 k q) := by
  rw [← Equiv.sum_comp (contrEquiv1 d K hd.rank hd.size).symm]
  refine Finset.sum_congr rfl fun k _ => ?_
  have hk := contrEquiv1_symm_val d K hd.rank hd.size k
  have el : d.lhsIdx (ix2 p q) ((contrEquiv1 d K hd.rank hd.size).symm k) = ix2 p k := funext fun a => Fin.ext (by
    match a with
    | ⟨0, _⟩ => exact hd.l0 _ _
    | ⟨1, _⟩ => exact (hd.l1 _ _).trans hk)
  have er : d.rhsIdx (ix2 p q) ((contrEquiv1 d K hd.rank hd.size).symm k) = ix2 k q := funext fun a => Fin.ext (by
    match a with
    | ⟨0, _⟩ => exact (hd.r0 _ _).trans hk
    | ⟨1, _⟩ => exact hd.r1 _ _)
  rw [el, er]

/-- A matrix-unit product into the zero accumulator, at entry (p, q). -/
theorem matmul_zero_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    FloatOps.matmul d prec l r (constant ⟨2, ![n, w]⟩ .f32 0x00000000#32) (ix2 p q) = ∑ k : Fin K, l (ix2 p k) * r (ix2 k q) :=
  (Ideal.matmul_constant_zero_apply d prec l r (ix2 p q)).trans (sum_eq hd l r p q)

end Cert.LibMatmulSum

end
-- ==== Proof.LibPlainLists.lean ====
/-
  A record of dimension numbers whose six lists are those of the plain product  [n, K] x [K, w] -> [n, w]  (left
  contracted on axis 1, right on axis 0, the result's axes the left's axis 0 then the right's axis 1, no batch axes)
  has the six index facts of a plain product: one contracted axis of extent K, and the operands read at
  (p, k) and (k, q) for the result's entry (p, q) and contraction position k.
-/
import proofs.«149182_j53266184405043_2_alg».proof.Proof.LibMatmulSum

noncomputable section

namespace Cert.LibMatmulSum

open Idealize.ShloMosaic

theorem Plain.of_lists {n K w : ℕ} (d : DotDims ⟨2, ![n, K]⟩ ⟨2, ![K, w]⟩ ⟨2, ![n, w]⟩)
    (hlc : d.lhsContracting = [1]) (hrc : d.rhsContracting = [0]) (hln : d.lhsNonContracting = [0])
    (hrn : d.rhsNonContracting = [1]) (hlb : d.lhsBatch = []) (hrb : d.rhsBatch = []) : Plain d := by
  have hrank : d.contr.rank = 1 := by rw [d.rank_contr, hlc]; rfl
  have keyI : ∀ (i : (⟨2, ![n, w]⟩ : Shape).Idx) (p q : Nat) (hp : p < 2) (hq : q < 2), p = q → (i ⟨p, hp⟩).val = (i ⟨q, hq⟩).val :=
    fun i p q hp hq h => by subst h; rfl
  have keyK : ∀ (k : d.contr.Idx) (p q : Nat) (hp : p < d.contr.rank) (hq : q < d.contr.rank), p = q → (k ⟨p, hp⟩).val = (k ⟨q, hq⟩).val :=
    fun k p q hp hq h => by subst h; rfl
  refine ⟨hrank, ?_, ?_, ?_, ?_, ?_⟩
  · have h0 : 0 < d.lhsContracting.length := by rw [hlc]; exact Nat.one_pos
    have e : d.lhsContracting[0] = (1 : Fin 2) := by simp [hlc]
    exact (d.size_contr 0 h0).trans (by rw [e]; rfl)
  · intro i q
    unfold DotDims.lhsIdx
    rw [dif_neg (by rw [hlb]; exact List.not_mem_nil), dif_pos (by rw [hln]; exact List.mem_singleton.mpr rfl)]
    simp only [Fin.val_cast]
    exact keyI i _ _ _ _ (by simp [hlb, hln])
  · intro i q
    unfold DotDims.lhsIdx
    rw [dif_neg (by rw [hlb]; exact List.not_mem_nil), dif_neg (by rw [hln]; exact fun h => absurd (show (1 : ℕ) = 0 from congrArg Fin.val (List.mem_singleton.mp h)) Nat.one_ne_zero)]
    simp only [Fin.val_cast]
    exact keyK q _ _ _ _ (by simp [hlc])
  · intro i q
    unfold DotDims.rhsIdx
    rw [dif_neg (by rw [hrb]; exact List.not_mem_nil), dif_neg (by rw [hrn]; exact fun h => absurd (show (0 : ℕ) = 1 from congrArg Fin.val (List.mem_singleton.mp h)) Nat.zero_ne_one)]
    simp only [Fin.val_cast]
    exact keyK q _ _ _ _ (by simp [hrc])
  · intro i q
    unfold DotDims.rhsIdx
    rw [dif_neg (by rw [hrb]; exact List.not_mem_nil), dif_pos (by rw [hrn]; exact List.mem_singleton.mpr rfl)]
    simp only [Fin.val_cast]
    exact keyI i _ _ _ _ (by simp [hlb, hln, hrn])

end Cert.LibMatmulSum

end
-- ==== Proof.Mlp.lean ====
/-
  The middle of the kernel body, at the ideal values: from the pooled sums and maxima (two vectors of 256 numbers) to
  the gate vector. The sums are divided by 12544 (the means); the means and the maxima are stacked as the two rows of
  a 2 × 256 matrix; both rows go through the two-layer map at once — a product with w1 (256 × 32) plus b1 on every
  row, a ramp at zero, a product with w2 (32 × 256) plus b2 on every row —, the two rows of the result are added, and
  the logistic function of that sum, laid out as 1 × 1 × 256, is the gate. A matrix product into a zero accumulator is
  the sum over the contracted index; a row of the stacked matrix is the vector it was stacked from; so entry c of the
  gate is the logistic function of the two-layer map of the means at c plus the two-layer map of the maxima at c.
-/
import proofs.«149182_j53266184405043_2_alg».proof.Proof.Gen.KernelIdeal.Skeleton
import proofs.«149182_j53266184405043_2_alg».proof.Proof.Spec
import proofs.«149182_j53266184405043_2_alg».proof.Proof.LibPlainLists
import Idealize.ShloMosaic.Lib.ValueLayout
import Idealize.ShloMosaic.PureOps.Ideal.Laws

noncomputable section

namespace Cert.KernelIdeal.Mlp

open Cert.KernelIdeal Cert.KernelIdeal.Gen Idealize.ShloMosaic Idealize.ShloMosaic.ValueIdx Cert.ChannelGate

/-- Row 0 of two stacked rows is the first; -/
theorem stack_row0 (a b : FVec Ideal S1x256 .f32) (k : Fin 256) :
    concatenate S2x256 0 [⟨S1x256, a⟩, ⟨S1x256, b⟩] concatenates_S1x256_S1x256_S2x256_d0 (ix2 (0 : Fin 2) k) = a (ix2 (0 : Fin 1) k) :=
  concatenate_pair_apply_left (0 : Fin 2) a b concatenates_S1x256_S1x256_S2x256_d0 (ix2 (0 : Fin 2) k) rfl (ix2 (0 : Fin 1) k)
    (fun ax => by match ax with | ⟨0, _⟩ => rfl | ⟨1, _⟩ => rfl)

/-- row 1 is the second. -/
theorem stack_row1 (a b : FVec Ideal S1x256 .f32) (k : Fin 256) :
    concatenate S2x256 0 [⟨S1x256, a⟩, ⟨S1x256, b⟩] concatenates_S1x256_S1x256_S2x256_d0 (ix2 (1 : Fin 2) k) = b (ix2 (0 : Fin 1) k) :=
  concatenate_pair_apply_right (0 : Fin 2) a b concatenates_S1x256_S1x256_S2x256_d0 (ix2 (1 : Fin 2) k) rfl rfl (ix2 (0 : Fin 1) k)
    (fun ax hne => by match ax with | ⟨0, _⟩ => exact absurd rfl hne | ⟨1, _⟩ => rfl) rfl

/-- A vector laid out as one row, read at an entry of that row. -/
theorem as_row (v : FVec Ideal S256 .f32) (u : Fin 1) (k : Fin 256) :
    shapeCast S1x256 v shapeCasts_S256_S1x256 (ix2 u k) = v (ix1 k) := shapeCast_a_1a_apply v _ u k

theorem as_row32 (v : FVec Ideal S32 .f32) (u : Fin 1) (k : Fin 32) :
    shapeCast S1x32 v shapeCasts_S32_S1x32 (ix2 u k) = v (ix1 k) := shapeCast_a_1a_apply v _ u k

/-- Row `r` of a two-row matrix, cut out and laid back as a vector. -/
theorem row0_of (m : FVec Ideal S2x256 .f32) (c : Fin 256) :
    shapeCast S256 (extractStridedSlice S1x256 ![0, 0] m slices_S2x256_o0_0_S1x256) shapeCasts_S1x256_S256 (ix1 c) = m (ix2 (0 : Fin 2) c) :=
  (shapeCast_1a_a_apply _ _ c).trans (slice2_axis0_apply 0 m slices_S2x256_o0_0_S1x256 (0 : Fin 1) c (0 : Fin 2) rfl)

theorem row1_of (m : FVec Ideal S2x256 .f32) (c : Fin 256) :
    shapeCast S256 (extractStridedSlice S1x256 ![1, 0] m slices_S2x256_o1_0_S1x256) shapeCasts_S1x256_S256 (ix1 c) = m (ix2 (1 : Fin 2) c) :=
  (shapeCast_1a_a_apply _ _ c).trans (slice2_axis0_apply 1 m slices_S2x256_o1_0_S1x256 (0 : Fin 1) c (1 : Fin 2) rfl)

/-- A vector laid out as 1 × 1 × 256, read at its entry `c`. -/
theorem as_gate (v : FVec Ideal S256 .f32) (c : Fin 256) :
    shapeCast S1x1x256 v shapeCasts_S256_S1x1x256 (ix3 (0 : Fin 1) (0 : Fin 1) c) = v (ix1 c) :=
  shapeCast_apply v _ _ _ (by
    rw [Shape.rowMajor_val_one, Shape.rowMajor_val_three]
    show c.val = (0 * 1 + 0) * 256 + c.val
    omega)

theorem plain1 : Cert.LibMatmulSum.Plain dot_S2x256_S256x32_S2x32_1_0_0_1_n_n :=
  Cert.LibMatmulSum.Plain.of_lists _ rfl rfl rfl rfl rfl rfl

theorem plain2 : Cert.LibMatmulSum.Plain dot_S2x32_S32x256_S2x256_1_0_0_1_n_n :=
  Cert.LibMatmulSum.Plain.of_lists _ rfl rfl rfl rfl rfl rfl

/-- The two-layer map of one row `r` of a two-row matrix, as the body computes it, is the two-layer map of that row. -/
theorem two_layer (p : FVec Ideal S2x256 .f32) (x1 : FVec Ideal S256x32 .f32) (x2 : FVec Ideal S32 .f32)
    (x3 : FVec Ideal S32x256 .f32) (x4 : FVec Ideal S256 .f32) (r : Fin 2) (c : Fin 256) :
    addf (matmul dot_S2x32_S32x256_S2x256_1_0_0_1_n_n none
        (maximumf (addf (matmul dot_S2x256_S256x32_S2x32_1_0_0_1_n_n none p x1 (constant S2x32 .f32 0x00000000#32))
          (broadcastTo S2x32 (shapeCast S1x32 x2 shapeCasts_S32_S1x32) broadcasts_S1x32_S2x32))
          (broadcast S2x32 (Scalar.ofBits .f32 0x00000000#32)))
        x3 (constant S2x256 .f32 0x00000000#32))
      (broadcastTo S2x256 (shapeCast S1x256 x4 shapeCasts_S256_S1x256) broadcasts_S1x256_S2x256) (ix2 r c)
      = mlp (fun k => p (ix2 r k)) x1 x2 x3 x4 c := by
  rw [addf_apply, broadcastTo_1b_ab_apply, as_row]
  simp only [matmul]
  rw [Cert.LibMatmulSum.matmul_zero_at plain2]
  unfold mlp rampUnit
  refine congrArg (· + x4 (ix1 c)) (Finset.sum_congr rfl fun j _ => ?_)
  rw [maximumf_apply, addf_apply, broadcastTo_1b_ab_apply, as_row32]
  simp only [matmul]
  rw [Cert.LibMatmulSum.matmul_zero_at plain1]
  rfl

/-- Entry `c` of the gate vector the body computes from the pooled sums `s` and maxima `mx`. -/
theorem gate_entry (s mx : FVec Ideal S256 .f32) (x1 : FVec Ideal S256x32 .f32) (x2 : FVec Ideal S32 .f32)
    (x3 : FVec Ideal S32x256 .f32) (x4 : FVec Ideal S256 .f32) (c : Fin 256) :
    k0_pay16 s mx k0_pay15 x1 x2 x3 x4 (ix3 (0 : Fin 1) (0 : Fin 1) c)
      = Ideal.logistic (mlp (fun k => Ideal.div (s (ix1 k)) count) x1 x2 x3 x4 c + mlp (fun k => mx (ix1 k)) x1 x2 x3 x4 c) := by
  unfold k0_pay16 k0_pay15
  rw [as_gate]
  show Ideal.logistic (_ + _) = _
  rw [row0_of, row1_of, two_layer, two_layer]
  simp only [stack_row0, stack_row1, as_row]
  rfl

end Cert.KernelIdeal.Mlp

end
-- ==== Proof.Block.lean ====
/-
  What one run of the kernel body leaves in its output block, at the ideal values. The body fills the block
  (1 × 112 × 112 × 256) by seven stores of 16 rows each; the piece stored at rows 16 n … 16 n + 15 is the same rows of
  the image block, every entry multiplied by the gate of its channel, and the gate vector is the same for all seven:
  the logistic function of the two-layer map of the channel means plus the two-layer map of the channel maxima of the
  whole image block (Pool.lean, Mlp.lean). So the seven pieces are pieces of ONE function of the block's index — the
  gated one-image batch of Spec.lean — and since they tile the block, the block ends holding that function.
-/
import proofs.«149182_j53266184405043_2_alg».proof.Proof.Gen.KernelIdeal.Frame
import proofs.«149182_j53266184405043_2_alg».proof.Proof.Pool
import proofs.«149182_j53266184405043_2_alg».proof.Proof.Mlp
import Idealize.ShloMosaic.Lib.Pipeline.Value
import Idealize.ShloMosaic.Lib.Tactic

set_option maxRecDepth 16384

noncomputable section

namespace Cert.KernelIdeal.Block

open Cert.KernelIdeal Cert.KernelIdeal.Gen Idealize.ShloMosaic Idealize.ShloMosaic.ValueIdx Idealize.ShloMosaic.TcCoe
open Idealize.ShloMosaic.Tactic Idealize.SL.Sem Cert.ChannelGate Cert.KernelIdeal.Pool

theorem hz1 : (![0] : Fin 1 → Nat) = fun _ => 0 := funext fun a => by fin_cases a; rfl
theorem hz2 : (![0, 0] : Fin 2 → Nat) = fun _ => 0 := funext fun a => by fin_cases a <;> rfl

/-- The image block read through the rectangle of rows 16 n … 16 n + 15 is that group of its rows. -/
theorem ld_rows (x0 : Vec Ideal S1x112x112x256 .f32) (n : Fin 7) (off : Fin 4 → Nat)
    (inb : ∀ a, off a + S1x16x112x256.size a ≤ S1x112x112x256.size a) (hoff : off = ![0, 16 * n.val, 0, 0]) :
    HoldsRows x0 n (View.ld x0 (Rect.unit off S1x16x112x256.size inb)) := by
  subst hoff
  intro r s k
  show x0 ((Rect.unit _ _ _).idx _) = _
  refine congrArg x0 (funext fun a => Fin.ext ?_)
  match a with
  | ⟨0, _⟩ => show 0 + 1 * 0 = 0; rfl
  | ⟨1, _⟩ => show 16 * n.val + 1 * r.val = 16 * n.val + r.val; omega
  | ⟨2, _⟩ => show 0 + 1 * s.val = s.val; omega
  | ⟨3, _⟩ => show 0 + 1 * k.val = k.val; omega

/-- The gate vector the body computes from seven pieces that hold the seven groups of rows of the image block. -/
theorem gate_of_block (x0 : Vec Ideal S1x112x112x256 .f32) (x1 : FVec Ideal S256x32 .f32) (x2 : FVec Ideal S32 .f32)
    (x3 : FVec Ideal S32x256 .f32) (x4 : FVec Ideal S256 .f32) (l0 l1 l2 l3 l4 l5 l6 : Vec Ideal S1x16x112x256 .f32)
    (h0 : HoldsRows x0 0 l0) (h1 : HoldsRows x0 1 l1) (h2 : HoldsRows x0 2 l2) (h3 : HoldsRows x0 3 l3)
    (h4 : HoldsRows x0 4 l4) (h5 : HoldsRows x0 5 l5) (h6 : HoldsRows x0 6 l6) (c : Fin 256) :
    k0_pay16 (k0_pay13 (k0_pay7 l0 l1 l2) l3 l4 l5 l6) (k0_pay14 (k0_pay8 l0 l1 l2) l3 l4 l5 l6) k0_pay15 x1 x2 x3 x4
        (ix3 (0 : Fin 1) (0 : Fin 1) c)
      = gate x0 x1 x2 x3 x4 0 c := by
  rw [Mlp.gate_entry]
  simp only [sum_of_rows x0 l0 l1 l2 l3 l4 l5 l6 h0 h1 h2 h3 h4 h5 h6, max_of_rows x0 l0 l1 l2 l3 l4 l5 l6 h0 h1 h2 h3 h4 h5 h6]
  rfl

/-- A stored piece, entry by entry: the loaded rows times the gate of the entry's channel. -/
theorem scaled_entry (gv : FVec Ideal S1x1x256 .f32) (v : Vec Ideal S1x16x112x256 .f32) (u : Fin 1) (r : Fin 16) (s : Fin 112)
    (k : Fin 256) :
    shapeCast S1x16x112x256 (mulf (shapeCast S16x112x256 v shapeCasts_S1x16x112x256_S16x112x256)
      (broadcastTo S16x112x256 gv broadcasts_S1x1x256_S16x112x256)) shapeCasts_S16x112x256_S1x16x112x256 (ix4 u r s k)
      = v (ix4 (0 : Fin 1) r s k) * gv (ix3 (0 : Fin 1) (0 : Fin 1) k) := by
  rw [shapeCast_abc_1abc_apply, mulf_apply, shapeCast_1abc_abc_apply]
  refine congrArg (v (ix4 (0 : Fin 1) r s k) * ·) ?_
  exact broadcastTo_apply gv _ (ix3 r s k) (ix3 (0 : Fin 1) (0 : Fin 1) k) (fun a => by
    match a with
    | ⟨0, _⟩ => rfl
    | ⟨1, _⟩ => rfl
    | ⟨2, _⟩ => show k.val = if (256 : Nat) = 1 then 0 else k.val; rw [if_neg (by decide)])

/-- The piece stored at rows 16 n … 16 n + 15, when its gate vector is the block's, is those rows of the gated block. -/
theorem piece_value (x0 : Vec Ideal S1x112x112x256 .f32) (x1 : FVec Ideal S256x32 .f32) (x2 : FVec Ideal S32 .f32)
    (x3 : FVec Ideal S32x256 .f32) (x4 : FVec Ideal S256 .f32) (gv : FVec Ideal S1x1x256 .f32)
    (hgv : ∀ c : Fin 256, gv (ix3 (0 : Fin 1) (0 : Fin 1) c) = gate x0 x1 x2 x3 x4 0 c) (n : Fin 7) (off : Fin 4 → Nat)
    (inb : ∀ a, off a + S1x16x112x256.size a ≤ S1x112x112x256.size a) (hoff : off = ![0, 16 * n.val, 0, 0])
    (x : S1x16x112x256.Idx) :
    shapeCast S1x16x112x256 (mulf (shapeCast S16x112x256 (View.ld x0 (Rect.unit off S1x16x112x256.size inb))
        shapeCasts_S1x16x112x256_S16x112x256) (broadcastTo S16x112x256 gv broadcasts_S1x1x256_S16x112x256))
        shapeCasts_S16x112x256_S1x16x112x256 x
      = gated x0 x1 x2 x3 x4 ((Rect.unit (s := S1x112x112x256) off S1x16x112x256.size inb).emb x) := by
  obtain ⟨u, r, s, k, rfl⟩ : ∃ (u : Fin 1) (r : Fin 16) (s : Fin 112) (k : Fin 256), x = ix4 u r s k :=
    ⟨x 0, x 1, x 2, x 3, eq_ix4 x⟩
  have he : (Rect.unit (s := S1x112x112x256) off S1x16x112x256.size inb).emb (ix4 u r s k) = ix4 (0 : Fin 1) (row n r) s k := by
    subst hoff
    refine funext fun a => Fin.ext ?_
    match a with
    | ⟨0, _⟩ => show 0 + 1 * u.val = 0; omega
    | ⟨1, _⟩ => show 16 * n.val + 1 * r.val = 16 * n.val + r.val; omega
    | ⟨2, _⟩ => show 0 + 1 * s.val = s.val; omega
    | ⟨3, _⟩ => show 0 + 1 * k.val = k.val; omega
  rw [scaled_entry, hgv, he, ld_rows x0 n off inb hoff r s k]
  rfl

/-- THE BLOCK: what a run of the body leaves in the output's staging buffer is the gated image block. -/
theorem block_value (c : Dev nD) (i : grid0.Coords) (arg1 : Memref sig .tc .vmem S1x112x112x256 .f32) (harg1 : arg1.IsWhole)
    (arg2 : Memref sig .tc .vmem S256x32 .f32) (harg2 : arg2.IsWhole) (arg3 : Memref sig .tc .vmem S32 .f32) (harg3 : arg3.IsWhole)
    (arg4 : Memref sig .tc .vmem S32x256 .f32) (harg4 : arg4.IsWhole) (arg5 : Memref sig .tc .vmem S256 .f32) (harg5 : arg5.IsWhole)
    (arg6 : Memref sig .tc .vmem S1x112x112x256 .f32) (harg6 : arg6.IsWhole)
    (x0 : Vec Ideal S1x112x112x256 .f32) (x1 : Vec Ideal S256x32 .f32) (x2 : Vec Ideal S32 .f32) (x3 : Vec Ideal S32x256 .f32)
    (x4 : Vec Ideal S256 .f32) :
    out0_A_5 (F := Ideal) c i arg1 harg1 arg2 harg2 arg3 harg3 arg4 harg4 arg5 harg5 arg6 harg6 x0 x1 x2 x3 x4
      = gated x0 x1 x2 x3 x4 := by
  unfold out0_A_5
  rw [View.read_writes_junk_eq_canon]
  funext y
  refine View.canon_apply_of_pieces (gated x0 x1 x2 x3 x4) _ ?_ y
    (cover0_A_5 c i arg1 harg1 arg2 harg2 arg3 harg3 arg4 harg4 arg5 harg5 arg6 harg6 x0 x1 x2 x3 x4 y)
  unfold kernelRun0_A
  dsimp only
  sl_unfold_words
  simp only [View.readAt_eq_ld, harg1.read_unread, harg2.read_unread, harg3.read_unread, harg4.read_unread, harg5.read_unread,
    View.ld_unit_zero (S := S256x32) hz2, View.ld_unit_zero (S := S32) hz1, View.ld_unit_zero (S := S32x256) hz2,
    View.ld_unit_zero (S := S256) hz1]
  intro p hp
  simp only [List.mem_cons, List.mem_nil_iff, or_false] at hp
  rcases hp with rfl | rfl | rfl | rfl | rfl | rfl | rfl <;> intro x
  · refine piece_value x0 x1 x2 x3 x4 _ ?_ 6 _ _ rfl x
    exact (fun c' => gate_of_block x0 x1 x2 x3 x4 _ _ _ _ _ _ _ (ld_rows x0 0 _ _ rfl) (ld_rows x0 1 _ _ rfl) (ld_rows x0 2 _ _ rfl)
      (ld_rows x0 3 _ _ rfl) (ld_rows x0 4 _ _ rfl) (ld_rows x0 5 _ _ rfl) (ld_rows x0 6 _ _ rfl) c')
  · refine piece_value x0 x1 x2 x3 x4 _ ?_ 5 _ _ rfl x
    exact (fun c' => gate_of_block x0 x1 x2 x3 x4 _ _ _ _ _ _ _ (ld_rows x0 0 _ _ rfl) (ld_rows x0 1 _ _ rfl) (ld_rows x0 2 _ _ rfl)
      (ld_rows x0 3 _ _ rfl) (ld_rows x0 4 _ _ rfl) (ld_rows x0 5 _ _ rfl) (ld_rows x0 6 _ _ rfl) c')
  · refine piece_value x0 x1 x2 x3 x4 _ ?_ 4 _ _ rfl x
    exact (fun c' => gate_of_block x0 x1 x2 x3 x4 _ _ _ _ _ _ _ (ld_rows x0 0 _ _ rfl) (ld_rows x0 1 _ _ rfl) (ld_rows x0 2 _ _ rfl)
      (ld_rows x0 3 _ _ rfl) (ld_rows x0 4 _ _ rfl) (ld_rows x0 5 _ _ rfl) (ld_rows x0 6 _ _ rfl) c')
  · refine piece_value x0 x1 x2 x3 x4 _ ?_ 3 _ _ rfl x
    exact (fun c' => gate_of_block x0 x1 x2 x3 x4 _ _ _ _ _ _ _ (ld_rows x0 0 _ _ rfl) (ld_rows x0 1 _ _ rfl) (ld_rows x0 2 _ _ rfl)
      (ld_rows x0 3 _ _ rfl) (ld_rows x0 4 _ _ rfl) (ld_rows x0 5 _ _ rfl) (ld_rows x0 6 _ _ rfl) c')
  · refine piece_value x0 x1 x2 x3 x4 _ ?_ 2 _ _ rfl x
    exact (fun c' => gate_of_block x0 x1 x2 x3 x4 _ _ _ _ _ _ _ (ld_rows x0 0 _ _ rfl) (ld_rows x0 1 _ _ rfl) (ld_rows x0 2 _ _ rfl)
      (ld_rows x0 3 _ _ rfl) (ld_rows x0 4 _ _ rfl) (ld_rows x0 5 _ _ rfl) (ld_rows x0 6 _ _ rfl) c')
  · refine piece_value x0 x1 x2 x3 x4 _ ?_ 1 _ _ rfl x
    exact (fun c' => gate_of_block x0 x1 x2 x3 x4 _ _ _ _ _ _ _ (ld_rows x0 0 _ _ rfl) (ld_rows x0 1 _ _ rfl) (ld_rows x0 2 _ _ rfl)
      (ld_rows x0 3 _ _ rfl) (ld_rows x0 4 _ _ rfl) (ld_rows x0 5 _ _ rfl) (ld_rows x0 6 _ _ rfl) c')
  · refine piece_value x0 x1 x2 x3 x4 _ ?_ 0 _ _ rfl x
    exact (fun c' => gate_of_block x0 x1 x2 x3 x4 _ _ _ _ _ _ _ (ld_rows x0 0 _ _ rfl) (ld_rows x0 1 _ _ rfl) (ld_rows x0 2 _ _ rfl)
      (ld_rows x0 3 _ _ rfl) (ld_rows x0 4 _ _ rfl) (ld_rows x0 5 _ _ rfl) (ld_rows x0 6 _ _ rfl) c')

end Cert.KernelIdeal.Block

end
-- ==== Proof.KernelValue.lean ====
/-
  From blocks to the array. The grid has one point per image: at point t the image window and the output window both
  stage image t (block index (t, 0, 0, 0) of blocks of 1 × 112 × 112 × 256), and the four weight windows stage their
  whole arrays. What point t writes back is what the body left in the output block (Block.lean): the gated image t,
  whose gates depend on image t only (Spec.lean, `gate_of_image`) — that is, block t of the gated batch. Every index
  (b, h, w, k) of the result lies in point b's block, so after the run the result array is the gated batch.
-/
import proofs.«149182_j53266184405043_2_alg».proof.Proof.Gen.KernelIdeal.Value
import proofs.«149182_j53266184405043_2_alg».proof.Proof.Block

set_option maxRecDepth 16384

noncomputable section

namespace Cert.KernelIdeal.Whole

open Cert.KernelIdeal Cert.KernelIdeal.Gen Idealize.ShloMosaic Idealize.ShloMosaic.ValueIdx Idealize.ShloMosaic.TcCoe
open Idealize.SL.Sem Cert.ChannelGate
open Idealize.ShloMosaic.Pipeline (Dat)

variable (m : (ℓ : Loc nD τ sig) → Buf (Elt Ideal) ℓ) (ρ : Dev nD → PrngReg)

/-- The gated one-image batch that holds image `t` of `x` is image `t` of the gated batch. -/
theorem gated_of_image {B : Nat} (x : Img B) (y : Img 1) (t : Fin B) (w1 : W1) (b1 : B1) (w2 : W2) (b2 : B2)
    (h : ∀ (r s : Fin 112) (k : Fin 256), y (ix4 (0 : Fin 1) r s k) = x (ix4 t r s k)) (r s : Fin 112) (k : Fin 256) :
    gated y w1 b1 w2 b2 (ix4 (0 : Fin 1) r s k) = gated x w1 b1 w2 b2 (ix4 t r s k) := by
  unfold gated
  rw [h r s k]
  exact congrArg (x (ix4 t r s k) * ·) (gate_of_image x y t w1 b1 w2 b2 h k)

/-- The printed index maps over the grid: the image and output windows at point t are at block (t, 0, 0, 0), the weight
    windows at block 0. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_5.index t (0 : Fin 4) = t.val ∧ win0_5.index t (1 : Fin 4) = 0 ∧ win0_5.index t (2 : Fin 4) = 0 ∧ win0_5.index t (3 : Fin 4) = 0
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0 :=
  (by decide +kernel : ∀ t : Fin grid0.N, _)

/-- The gated batch of the argument arrays as the region finds them. -/
abbrev result (c : Dev nD) : S32x112x112x256.Idx → Elt Ideal .f32 :=
  gated (V m c main_arg0) (V m c main_arg1) (V m c main_arg2) (V m c main_arg3) (V m c main_arg4)

/-- WHAT POINT t WRITES BACK is block t of the gated batch. -/
theorem flushed_eq (c : Dev nD) (t : Fin cfg0.N) :
    (dats m 0 c).flushed 5 t = ((cfg0.win 5).blk t).view.read (Elt Ideal) (result m c) := by
  rw [Value.flushed5_A, Block.block_value]
  obtain ⟨a0, a1, a2, a3, o0, o1, o2, o3, p0, p1, q0, r0, r1, s0⟩ := idx_facts t
  have ht : t.val < 32 := Nat.lt_of_lt_of_eq t.isLt N_0
  have hw1 : iblk m c 1 t = V m c main_arg1 := by
    funext y
    show V m c main_arg1 (((cfg0.win 1).blk t).view.emb y) = V m c main_arg1 y
    refine congrArg (V m c main_arg1) (funext fun a => Fin.ext ?_)
    match a with
    | ⟨0, _⟩ => show win0_1.index t (0 : Fin 2) * 256 + 1 * (y 0).val = (y 0).val; omega
    | ⟨1, _⟩ => show win0_1.index t (1 : Fin 2) * 32 + 1 * (y 1).val = (y 1).val; omega
  have hw2 : iblk m c 2 t = V m c main_arg2 := by
    funext y
    show V m c main_arg2 (((cfg0.win 2).blk t).view.emb y) = V m c main_arg2 y
    refine congrArg (V m c main_arg2) (funext fun a => Fin.ext ?_)
    match a with
    | ⟨0, _⟩ => show win0_2.index t (0 : Fin 1) * 32 + 1 * (y 0).val = (y 0).val; omega
  have hw3 : iblk m c 3 t = V m c main_arg3 := by
    funext y
    show V m c main_arg3 (((cfg0.win 3).blk t).view.emb y) = V m c main_arg3 y
    refine congrArg (V m c main_arg3) (funext fun a => Fin.ext ?_)
    match a with
    | ⟨0, _⟩ => show win0_3.index t (0 : Fin 2) * 32 + 1 * (y 0).val = (y 0).val; omega
    | ⟨1, _⟩ => show win0_3.index t (1 : Fin 2) * 256 + 1 * (y 1).val = (y 1).val; omega
  have hw4 : iblk m c 4 t = V m c main_arg4 := by
    funext y
    show V m c main_arg4 (((cfg0.win 4).blk t).view.emb y) = V m c main_arg4 y
    refine congrArg (V m c main_arg4) (funext fun a => Fin.ext ?_)
    match a with
    | ⟨0, _⟩ => show win0_4.index t (0 : Fin 1) * 256 + 1 * (y 0).val = (y 0).val; omega
  rw [hw1, hw2, hw3, hw4]
  have hx : ∀ (r s : Fin 112) (k : Fin 256),
      iblk m c 0 t (ix4 (0 : Fin 1) r s k) = V m c main_arg0 (ix4 (⟨t.val, ht⟩ : Fin 32) r s k) := by
    intro r s k
    show V m c main_arg0 (((cfg0.win 0).blk t).view.emb (ix4 (0 : Fin 1) r s k)) = _
    refine congrArg (V m c main_arg0) (funext fun a => Fin.ext ?_)
    match a with
    | ⟨0, _⟩ => show win0_0.index t (0 : Fin 4) * 1 + 1 * 0 = t.val; omega
    | ⟨1, _⟩ => show win0_0.index t (1 : Fin 4) * 112 + 1 * r.val = r.val; omega
    | ⟨2, _⟩ => show win0_0.index t (2 : Fin 4) * 112 + 1 * s.val = s.val; omega
    | ⟨3, _⟩ => show win0_0.index t (3 : Fin 4) * 256 + 1 * k.val = k.val; omega
  funext j
  obtain ⟨u, r, s, k, rfl⟩ : ∃ (u : Fin 1) (r s : Fin 112) (k : Fin 256), j = ix4 u r s k := ⟨j 0, j 1, j 2, j 3, eq_ix4 j⟩
  obtain rfl : u = 0 := Subsingleton.elim _ _
  have he : ((cfg0.win 5).blk t).view.emb (ix4 (0 : Fin 1) r s k) = ix4 (⟨t.val, ht⟩ : Fin 32) r s k := by
    refine funext fun a => Fin.ext ?_
    match a with
    | ⟨0, _⟩ => show win0_5.index t (0 : Fin 4) * 1 + 1 * 0 = t.val; omega
    | ⟨1, _⟩ => show win0_5.index t (1 : Fin 4) * 112 + 1 * r.val = r.val; omega
    | ⟨2, _⟩ => show win0_5.index t (2 : Fin 4) * 112 + 1 * s.val = s.val; omega
    | ⟨3, _⟩ => show win0_5.index t (3 : Fin 4) * 256 + 1 * k.val = k.val; omega
  show gated (iblk m c 0 t) (V m c main_arg1) (V m c main_arg2) (V m c main_arg3) (V m c main_arg4) (ix4 (0 : Fin 1) r s k)
    = result m c (((cfg0.win 5).blk t).view.emb (ix4 (0 : Fin 1) r s k))
  rw [he]
  exact gated_of_image (B := 32) (V m c main_arg0) (iblk m c 0 t) ⟨t.val, ht⟩ _ _ _ _ hx r s k

/-- An index of the array is in point t's block iff each coordinate is in the block's range on its axis. -/
theorem mem_blk (t : Fin cfg0.N) (i : S32x112x112x256.Idx) :
    i ∈ ((cfg0.win 5).blk t).view.set ↔ ∀ a : Fin 4, win0_5.index t a * S1x112x112x256.size a ≤ (i a).val
      ∧ (i a).val < win0_5.index t a * S1x112x112x256.size a + S1x112x112x256.size a := by
  show i ∈ ((View.whole main_v0).slice (win0_5.rect t)).set ↔ _
  rw [View.set_slice_whole, Rect.mem_set_unit]
  exact Iff.rfl

/-- THE ARRAY after the run is the gated batch: image b's entries lie in point b's block. -/
theorem final (c : Dev nD) : (dats m 0 c).arrAt 5 cfg0.N = result m c :=
  (dats m 0 c).arrAt_eq_of_cover 5 (result m c) (fun t _ => flushed_eq m c t) fun i => by
    have hN : cfg0.N = 32 := N_0
    have hb : (i 0).val < 32 := (i 0).isLt
    refine ⟨⟨(i 0).val, by rw [hN]; exact hb⟩, flush0_5 _, ?_⟩
    rw [mem_blk]
    obtain ⟨-, -, -, -, o0, o1, o2, o3, -⟩ := idx_facts ⟨(i 0).val, by rw [hN]; exact hb⟩
    have h1 : (i 1).val < 112 := (i 1).isLt
    have h2 : (i 2).val < 112 := (i 2).isLt
    have h3 : (i 3).val < 256 := (i 3).isLt
    intro a
    match a with
    | ⟨0, _⟩ =>
      show win0_5.index _ (0 : Fin 4) * 1 ≤ (i 0).val ∧ (i 0).val < win0_5.index _ (0 : Fin 4) * 1 + 1
      rw [o0]; constructor <;> simp
    | ⟨1, _⟩ =>
      show win0_5.index _ (1 : Fin 4) * 112 ≤ (i 1).val ∧ (i 1).val < win0_5.index _ (1 : Fin 4) * 112 + 112
      rw [o1]; omega
    | ⟨2, _⟩ =>
      show win0_5.index _ (2 : Fin 4) * 112 ≤ (i 2).val ∧ (i 2).val < win0_5.index _ (2 : Fin 4) * 112 + 112
      rw [o2]; omega
    | ⟨3, _⟩ =>
      show win0_5.index _ (3 : Fin 4) * 256 ≤ (i 3).val ∧ (i 3).val < win0_5.index _ (3 : Fin 4) * 256 + 256
      rw [o3]; omega

/-- The run, read: the result array at the gated batch of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.RefValue.lean ====
/-
  The reference, stage by stage, is the gated batch of Spec.lean. Its sum and its maximum over the two position axes of
  the whole batch, read at (b, k), run over the indices (b, h, w, k), all h and w: the plane sum and the plane
  maximum of image b at channel k. The sum is divided by 12544. Each pooled 32 × 256 matrix goes through the two-layer
  map by two matrix products, whose entries are sums over the contracted index; the ramp is a maximum with a
  broadcast zero. The gate is 1 / (1 + exp (−z)) written out, which is the logistic function. The last stage
  multiplies every entry of the batch by the gate of its image and channel.
-/
import proofs.«149182_j53266184405043_2_alg».proof.Proof.Gen.ReferenceIdeal.Read
import proofs.«149182_j53266184405043_2_alg».proof.Proof.Spec
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx
open Cert.ChannelGate

/-- Position (h, w) of image `b`, at channel `k`. -/
def planeEmb (b : Fin 32) (k : Fin 256) : Fin 112 × Fin 112 ↪ S32x112x112x256.Idx :=
  ⟨fun p => ix4 b p.1 p.2 k, fun p q h => Prod.ext (congrFun h 1) (congrFun h 2)⟩

/-- The indices of the batch that keep (b, k) when the two position axes are dropped are image b's positions at k. -/
theorem filter_plane (b : Fin 32) (k : Fin 256) :
    (Finset.univ.filter fun i : S32x112x112x256.Idx => reducesTo_S32x112x112x256_S32x256_d1_2.drop i = ix2 b k)
      = Finset.univ.map (planeEmb b k) := by
  ext i
  simp only [Finset.mem_filter, Finset.mem_univ, true_and, Finset.mem_map, planeEmb, Function.Embedding.coeFn_mk]
  constructor
  · intro h
    have h0 : (i 0).val = b.val := by
      rw [← reducesTo_S32x112x112x256_S32x256_d1_2.drop_apply_val_of_eq i 0 0, h]
    have h3 : (i 3).val = k.val := by
      rw [← reducesTo_S32x112x112x256_S32x256_d1_2.drop_apply_val_of_eq i 1 3, h]
    exact ⟨(i 1, i 2), funext fun a => Fin.ext (by
      match a with
      | ⟨0, _⟩ => exact h0.symm
      | ⟨1, _⟩ => rfl
      | ⟨2, _⟩ => rfl
      | ⟨3, _⟩ => exact h3.symm)⟩
  · rintro ⟨q, rfl⟩
    funext a
    apply Fin.ext
    match a with
    | ⟨0, _⟩ => exact reducesTo_S32x112x112x256_S32x256_d1_2.drop_apply_val_of_eq _ 0 0
    | ⟨1, _⟩ => exact reducesTo_S32x112x112x256_S32x256_d1_2.drop_apply_val_of_eq _ 1 3

variable (x0 : (⟨S32x112x112x256, .f32⟩ : BufTy).Contents (Elt Ideal)) (x1 : (⟨S256x32, .f32⟩ : BufTy).Contents (Elt Ideal))
  (x2 : (⟨S32, .f32⟩ : BufTy).Contents (Elt Ideal)) (x3 : (⟨S32x256, .f32⟩ : BufTy).Contents (Elt Ideal))
  (x4 : (⟨S256, .f32⟩ : BufTy).Contents (Elt Ideal))

/-- The mean stage at (b, k). -/
theorem ref_mean (b : Fin 32) (k : Fin 256) : val_main_v2 (F := Ideal) x0 (ix2 b k) = planeMean x0 b k := by
  have e : val_main_v0 (F := Ideal) x0 (ix2 b k) = planeSum x0 b k := by
    refine Eq.trans (show _ = zeroW + ∑ i ∈ Finset.univ.filter (fun i : S32x112x112x256.Idx =>
      reducesTo_S32x112x112x256_S32x256_d1_2.drop i = ix2 b k), x0 i from rfl) ?_
    rw [filter_plane, Finset.sum_map, show zeroW = 0 from Ideal.ofBits_zero_f32, zero_add]
    rfl
  rw [val_main_v2_apply, e]
  rfl

/-- The maximum stage at (b, k). -/
theorem ref_max (b : Fin 32) (k : Fin 256) : val_main_v3 (F := Ideal) x0 (ix2 b k) = planeMax x0 b k := by
  unfold val_main_v3
  rw [Host.reduce_eq_fold, filter_plane, Finset.fold_map]
  rfl

/-- The hidden layer of a pooled stage `v` whose row b is `p`, at (b, j): the shape both calls of the ramp share. -/
theorem ref_hidden_mean (b : Fin 32) (j : Fin 32) :
    val_main_v8 (F := Ideal) x0 x1 x2 (ix2 b j) = rampUnit (planeMean x0 b) x1 x2 j := by
  have el : ∀ k : Fin 256, lidx_main_v4 (ix2 b j) k = ix2 b k := fun k => funext fun a => by
    match a with | ⟨0, _⟩ => rfl | ⟨1, _⟩ => rfl
  have er : ∀ k : Fin 256, ridx_main_v4 (ix2 b j) k = ix2 k j := fun k => funext fun a => by
    match a with | ⟨0, _⟩ => rfl | ⟨1, _⟩ => rfl
  have eb : idx_main_v5 (idx_main_v6 (ix2 b j)) = ix1 j := funext fun a => by match a with | ⟨0, _⟩ => rfl
  rw [val_main_v8_apply, val_main_v7_apply, val_main_v4_apply, val_main_v6_apply, val_main_v5_apply, eb]
  simp only [el, er, ref_mean]
  rfl

theorem ref_hidden_max (b : Fin 32) (j : Fin 32) :
    val_main_v17 (F := Ideal) x0 x1 x2 (ix2 b j) = rampUnit (planeMax x0 b) x1 x2 j := by
  have el : ∀ k : Fin 256, lidx_main_v13 (ix2 b j) k = ix2 b k := fun k => funext fun a => by
    match a with | ⟨0, _⟩ => rfl | ⟨1, _⟩ => rfl
  have er : ∀ k : Fin 256, ridx_main_v13 (ix2 b j) k = ix2 k j := fun k => funext fun a => by
    match a with | ⟨0, _⟩ => rfl | ⟨1, _⟩ => rfl
  have eb : idx_main_v14 (idx_main_v15 (ix2 b j)) = ix1 j := funext fun a => by match a with | ⟨0, _⟩ => rfl
  rw [val_main_v17_apply, val_main_v16_apply, val_main_v13_apply, val_main_v15_apply, val_main_v14_apply, eb]
  simp only [el, er, ref_max]
  rfl

/-- The two-layer map of the means, and of the maxima, at (b, c). -/
theorem ref_mlp_mean (b : Fin 32) (c : Fin 256) :
    val_main_v12 (F := Ideal) x0 x1 x2 x3 x4 (ix2 b c) = mlp (planeMean x0 b) x1 x2 x3 x4 c := by
  have el : ∀ j : Fin 32, lidx_main_v9 (ix2 b c) j = ix2 b j := fun j => funext fun a => by
    match a with | ⟨0, _⟩ => rfl | ⟨1, _⟩ => rfl
  have er : ∀ j : Fin 32, ridx_main_v9 (ix2 b c) j = ix2 j c := fun j => funext fun a => by
    match a with | ⟨0, _⟩ => rfl | ⟨1, _⟩ => rfl
  have eb : idx_main_v10 (idx_main_v11 (ix2 b c)) = ix1 c := funext fun a => by match a with | ⟨0, _⟩ => rfl
  rw [val_main_v12_apply, val_main_v9_apply, val_main_v11_apply, val_main_v10_apply, eb]
  simp only [el, er, ref_hidden_mean]
  rfl

theorem ref_mlp_max (b : Fin 32) (c : Fin 256) :
    val_main_v21 (F := Ideal) x0 x1 x2 x3 x4 (ix2 b c) = mlp (planeMax x0 b) x1 x2 x3 x4 c := by
  have el : ∀ j : Fin 32, lidx_main_v18 (ix2 b c) j = ix2 b j := fun j => funext fun a => by
    match a with | ⟨0, _⟩ => rfl | ⟨1, _⟩ => rfl
  have er : ∀ j : Fin 32, ridx_main_v18 (ix2 b c) j = ix2 j c := fun j => funext fun a => by
    match a with | ⟨0, _⟩ => rfl | ⟨1, _⟩ => rfl
  have eb : idx_main_v19 (idx_main_v20 (ix2 b c)) = ix1 c := funext fun a => by match a with | ⟨0, _⟩ => rfl
  rw [val_main_v21_apply, val_main_v18_apply, val_main_v20_apply, val_main_v19_apply, eb]
  simp only [el, er, ref_hidden_max]
  rfl

/-- The gate stage at (b, c): 1 / (1 + exp (−z)) is the logistic function of z. -/
theorem ref_gate (b : Fin 32) (c : Fin 256) :
    val_main_v28 (F := Ideal) x0 x1 x2 x3 x4 (ix2 b c) = gate x0 x1 x2 x3 x4 b c := by
  rw [val_main_v28_apply, val_main_v27_apply, val_main_cst_3_apply, val_main_v26_apply, val_main_v25_apply,
    val_main_cst_2_apply, val_main_v24_apply, val_main_v23_apply, val_main_v22_apply, ref_mlp_mean, ref_mlp_max]
  unfold gate
  show Ideal.div (Ideal.ofBits .f32 0x3F800000#32) (Ideal.ofBits .f32 0x3F800000#32 + Ideal.exp (-(_ + _))) = Ideal.logistic _
  rw [Ideal.ofBits_one_f32]
  rfl

/-- The reference's last stage is the gated batch. -/
theorem ref_eq : val_main_v31 (F := Ideal) x0 x1 x2 x3 x4 = gated x0 x1 x2 x3 x4 := by
  funext i
  obtain ⟨b, h, w, c, rfl⟩ : ∃ (b : Fin 32) (h w : Fin 112) (c : Fin 256), i = ix4 b h w c := ⟨i 0, i 1, i 2, i 3, eq_ix4 i⟩
  have e : idx_main_v29 (idx_main_v30 (ix4 b h w c)) = ix2 b c := funext fun a => by
    match a with | ⟨0, _⟩ => rfl | ⟨1, _⟩ => rfl
  rw [val_main_v31_apply, val_main_v30_apply, val_main_v29_apply, e, ref_gate]
  rfl

end Cert.ReferenceIdeal.RefValue

end
-- ==== Proof.lean ====
/-
  The kernel computes, image by image, a channel gate — the logistic function of a two-layer map of the channel means
  plus the same map of the channel maxima — and multiplies the image by it; the reference computes the same for the
  whole batch at once. At the ideal values both end with the gated batch of Spec.lean: the kernel because its
  per-image pooling in seven groups of sixteen rows is the pooling over all rows (Pool.lean), its stacked two-row
  matrix products are the two-layer map of each row (Mlp.lean), its seven stores tile the image block
  (Block.lean) and its 32 blocks tile the batch (KernelValue.lean); the reference stage by stage (RefValue.lean).
  The three frames are the generated runs; the idealization rewrote nothing.
-/
import proofs.«149182_j53266184405043_2_alg».proof.Defs
import proofs.«149182_j53266184405043_2_alg».proof.Proof.Gen.Kernel
import proofs.«149182_j53266184405043_2_alg».proof.Proof.Gen.Kernel.Skeleton
import proofs.«149182_j53266184405043_2_alg».proof.Proof.Gen.Kernel.Launch
import proofs.«149182_j53266184405043_2_alg».proof.Proof.Gen.Kernel.Points
import proofs.«149182_j53266184405043_2_alg».proof.Proof.Gen.Kernel.Frame
import proofs.«149182_j53266184405043_2_alg».proof.Proof.Gen.KernelIdeal
import proofs.«149182_j53266184405043_2_alg».proof.Proof.Gen.KernelIdeal.Skeleton
import proofs.«149182_j53266184405043_2_alg».proof.Proof.Gen.KernelIdeal.Launch
import proofs.«149182_j53266184405043_2_alg».proof.Proof.Gen.KernelIdeal.Points
import proofs.«149182_j53266184405043_2_alg».proof.Proof.Gen.KernelIdeal.Frame
import proofs.«149182_j53266184405043_2_alg».proof.Proof.Gen.ReferenceIdeal
import proofs.«149182_j53266184405043_2_alg».proof.Proof.Gen.Pre_finite_inputs
import proofs.«149182_j53266184405043_2_alg».proof.Proof.Gen.KernelIdeal.Value
import proofs.«149182_j53266184405043_2_alg».proof.Proof.Gen.ReferenceIdeal.Run
import proofs.«149182_j53266184405043_2_alg».proof.Proof.Gen.ReferenceIdeal.Read
import proofs.«149182_j53266184405043_2_alg».proof.Proof.KernelValue
import proofs.«149182_j53266184405043_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end at the gated batch of arguments that agree. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.ReferenceIdeal.RefValue.ref_eq, (hagree c).1, (hagree c).2.1,
    (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
